-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x192x192x24 : Shape := ⟨4, ![3, 192, 192, 24]⟩
abbrev S64x3 : Shape := ⟨2, ![64, 3]⟩
abbrev S3 : Shape := ⟨1, ![3]⟩
abbrev S_ : Shape := ⟨0, ![]⟩

class Facts : Prop where
  bcast_S_S3x192x192x24 : S_.BroadcastsInDim S3x192x192x24 (![] : Fin 0 → Fin S3x192x192x24.rank)
  reducesTo_S3x192x192x24_S_d0_1_2_3 : S3x192x192x24.ReducesTo [0, 1, 2, 3] S_
  h_S_ : 0 < S_.numel
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn {F : FTy → Type} [FloatOps F] (main_arg0 : FVec F S3x192x192x24 .f32) (main_arg1 : FVec F S64x3 .f32) (main_arg2 : FVec F S3 .f32) : IVec S_ 1 :=
  let main_v0 : FVec F S3x192x192x24 .f32 := Host.absf main_arg0
  let main_cst : FVec F S_ .f32 := constant S_ .f32 0x7F800000#32
  let main_v1 : FVec F S3x192x192x24 .f32 := broadcastInDim S3x192x192x24 ![] bcast_S_S3x192x192x24 main_cst
  let main_v2 : IVec S3x192x192x24 1 := cmpf .olt main_v0 main_v1
  let main_c : IVec S_ 1 := constantI S_ 1 1#1
  let main_v3 : IVec S_ 1 := (fun x v => Host.reduce IntOp.andi x v reducesTo_S3x192x192x24_S_d0_1_2_3 h_S_) main_v2 main_c
  let main_v4 : FVec F S64x3 .f32 := Host.absf main_arg1
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  main_v13
-- ==== Kernel.lean ====
abbrev S3x192x192x24 : Shape := ⟨4, ![3, 192, 192, 24]⟩
abbrev S64x3 : Shape := ⟨2, ![64, 3]⟩
abbrev S3 : Shape := ⟨1, ![3]⟩
abbrev S3x192x4608 : Shape := ⟨3, ![3, 192, 4608]⟩
abbrev S_ : Shape := ⟨0, ![]⟩
abbrev S1x3 : Shape := ⟨2, ![1, 3]⟩
abbrev S64x192x4608 : Shape := ⟨3, ![64, 192, 4608]⟩
abbrev S1x192x4608 : Shape := ⟨3, ![1, 192, 4608]⟩
abbrev S192x4608 : Shape := ⟨2, ![192, 4608]⟩
abbrev S1 : Shape := ⟨1, ![1]⟩
abbrev S64x192x192x24 : Shape := ⟨4, ![64, 192, 192, 24]⟩

abbrev nBuf : Space → Nat
  | .hbm => 17
  | .vmem => 5
  | .smem => 0
  | _ => 0

abbrev bufTy : (tb : Table) → Fin (tcTables nBuf tb) → BufTy
  | .hbm, ⟨0, _⟩ => ⟨S3x192x192x24, .f32⟩
  | .hbm, ⟨1, _⟩ => ⟨S64x3, .f32⟩
  | .hbm, ⟨2, _⟩ => ⟨S3, .f32⟩
  | .hbm, ⟨3, _⟩ => ⟨S3x192x4608, .f32⟩
  | .hbm, ⟨4, _⟩ => ⟨S3, .f32⟩
  | .hbm, ⟨5, _⟩ => ⟨S_, .f32⟩
  | .hbm, ⟨6, _⟩ => ⟨S3, .f32⟩
  | .hbm, ⟨7, _⟩ => ⟨S3, .f32⟩
  | .hbm, ⟨8, _⟩ => ⟨S_, .f32⟩
  | .hbm, ⟨9, _⟩ => ⟨S3, .f32⟩
  | .hbm, ⟨10, _⟩ => ⟨S3, .f32⟩
  | .hbm, ⟨11, _⟩ => ⟨S_, .f32⟩
  | .hbm, ⟨12, _⟩ => ⟨S3, .f32⟩
  | .hbm, ⟨13, _⟩ => ⟨S3, .f32⟩
  | .hbm, ⟨14, _⟩ => ⟨S1x3, .f32⟩
  | .hbm, ⟨15, _⟩ => ⟨S64x192x4608, .f32⟩
  | .hbm, ⟨16, _⟩ => ⟨S64x192x192x24, .f32⟩
  | .local _ .vmem, ⟨0, _⟩ => ⟨S3x192x4608, .f32⟩
  | .local _ .vmem, ⟨1, _⟩ => ⟨S64x3, .f32⟩
  | .local _ .vmem, ⟨2, _⟩ => ⟨S1x3, .f32⟩
  | .local _ .vmem, ⟨3, _⟩ => ⟨S1x192x4608, .f32⟩
  | .local _ .vmem, ⟨4, _⟩ => ⟨S1x192x4608, .f32⟩
  | _, _ => ⟨S3x192x192x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S3x192x4608 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x192x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S3x192x192x24_S3x192x4608 : S3x192x192x24.ShapeCasts S3x192x4608
  bcast_S_S3 : S_.BroadcastsInDim S3 (![] : Fin 0 → Fin S3.rank)
  shapeCasts_S3_S1x3 : S3.ShapeCasts S1x3
  h_S1x3 : 0 < S1x3.numel
  shapeCasts_S1x3_S3 : S1x3.ShapeCasts S3
  inb_S1x3_S1x3_0_0 : ∀ a, (![0, 0] : Fin 2 → Nat) a + S1x3.size a ≤ S1x3.size a
  inb_S3x192x4608_S1x192x4608_0_0_0 : ∀ a, (![0, 0, 0] : Fin 3 → Nat) a + S1x192x4608.size a ≤ S3x192x4608.size a
  h_S1x192x4608 : 0 < S1x192x4608.numel
  shapeCasts_S1x192x4608_S192x4608 : S1x192x4608.ShapeCasts S192x4608
  slices_S3_o0_S1 : S3.Slices ![0] S1
  inpos_S1_p0 : ∀ a, (![0] : Fin 1 → Nat) a < S1.size a
  inb_S3x192x4608_S1x192x4608_1_0_0 : ∀ a, (![1, 0, 0] : Fin 3 → Nat) a + S1x192x4608.size a ≤ S3x192x4608.size a
  slices_S3_o1_S1 : S3.Slices ![1] S1
  inb_S3x192x4608_S1x192x4608_2_0_0 : ∀ a, (![2, 0, 0] : Fin 3 → Nat) a + S1x192x4608.size a ≤ S3x192x4608.size a
  slices_S3_o2_S1 : S3.Slices ![2] S1
  inb_S1x192x4608_S1x192x4608_0_0_0 : ∀ a, (![0, 0, 0] : Fin 3 → Nat) a + S1x192x4608.size a ≤ S1x192x4608.size a
  shapeCasts_S192x4608_S1x192x4608 : S192x4608.ShapeCasts S1x192x4608
  shapeCasts_S64x192x4608_S64x192x192x24 : S64x192x4608.ShapeCasts S64x192x192x24
  hrank0 : 0 < grid0.rank
  k0_off1_inb : ∀ i : grid0.Coords, ∀ a, (k0_off1 i) a + S1x3.size a ≤ S64x3.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x192x4608.size a ≤ S3x192x4608.size a
  hwx0_0 : ∀ i : grid0.Coords, EltTy.bits .f32 = 32 ∨ (Rect.block (s := S3x192x4608) S3x192x4608.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x3.size a ≤ S64x3.size a
  hwx0_1 : ∀ i : grid0.Coords, EltTy.bits .f32 = 32 ∨ (Rect.block (s := S64x3) S64x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3.size a ≤ S1x3.size a
  hwx0_2 : ∀ i : grid0.Coords, EltTy.bits .f32 = 32 ∨ (Rect.block (s := S1x3) S1x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x192x4608.size a ≤ S64x192x4608.size a
  hwx0_3 : ∀ i : grid0.Coords, EltTy.bits .f32 = 32 ∨ (Rect.block (s := S64x192x4608) S1x192x4608.size (cc0_transform_3 i) (hinb0_3 i)).WholeWords (EltTy.packing .f32)

variable [Facts₀]

abbrev win0_0 : Pipeline.Window sig grid0 :=
  Pipeline.Window.ofSpec (Memref.whole main_v0) S3x192x4608.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x192x4608.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3x192x192x24 : Shape := ⟨4, ![3, 192, 192, 24]⟩
abbrev S64x3 : Shape := ⟨2, ![64, 3]⟩
abbrev S3 : Shape := ⟨1, ![3]⟩
abbrev S_ : Shape := ⟨0, ![]⟩
abbrev S1x3x192x192x24 : Shape := ⟨5, ![1, 3, 192, 192, 24]⟩
abbrev S64x3x1x1x1 : Shape := ⟨5, ![64, 3, 1, 1, 1]⟩
abbrev S64x3x192x192x24 : Shape := ⟨5, ![64, 3, 192, 192, 24]⟩
abbrev S1x3x1x1x1 : Shape := ⟨5, ![1, 3, 1, 1, 1]⟩
abbrev S64x192x192x24 : Shape := ⟨4, ![64, 192, 192, 24]⟩

abbrev nBuf : Space → Nat
  | .hbm => 25
  | .vmem => 0
  | .smem => 0
  | _ => 0

abbrev bufTy : (tb : Table) → Fin (tcTables nBuf tb) → BufTy
  | .hbm, ⟨0, _⟩ => ⟨S3x192x192x24, .f32⟩
  | .hbm, ⟨1, _⟩ => ⟨S64x3, .f32⟩
  | .hbm, ⟨2, _⟩ => ⟨S3, .f32⟩
  | .hbm, ⟨3, _⟩ => ⟨S3, .f32⟩
  | .hbm, ⟨4, _⟩ => ⟨S_, .f32⟩
  | .hbm, ⟨5, _⟩ => ⟨S3, .f32⟩
  | .hbm, ⟨6, _⟩ => ⟨S3, .f32⟩
  | .hbm, ⟨7, _⟩ => ⟨S_, .f32⟩
  | .hbm, ⟨8, _⟩ => ⟨S3, .f32⟩
  | .hbm, ⟨9, _⟩ => ⟨S3, .f32⟩
  | .hbm, ⟨10, _⟩ => ⟨S_, .f32⟩
  | .hbm, ⟨11, _⟩ => ⟨S3, .f32⟩
  | .hbm, ⟨12, _⟩ => ⟨S3, .f32⟩
  | .hbm, ⟨13, _⟩ => ⟨S1x3x192x192x24, .f32⟩
  | .hbm, ⟨14, _⟩ => ⟨S64x3x1x1x1, .f32⟩
  | .hbm, ⟨15, _⟩ => ⟨S64x3x192x192x24, .f32⟩
  | .hbm, ⟨16, _⟩ => ⟨S64x3x192x192x24, .f32⟩
  | .hbm, ⟨17, _⟩ => ⟨S64x3x192x192x24, .f32⟩
  | .hbm, ⟨18, _⟩ => ⟨S64x3x192x192x24, .f32⟩
  | .hbm, ⟨19, _⟩ => ⟨S1x3x1x1x1, .f32⟩
  | .hbm, ⟨20, _⟩ => ⟨S64x3x192x192x24, .f32⟩
  | .hbm, ⟨21, _⟩ => ⟨S64x3x192x192x24, .f32⟩
  | .hbm, ⟨22, _⟩ => ⟨S_, .f32⟩
  | .hbm, ⟨23, _⟩ => ⟨S64x192x192x24, .f32⟩
  | .hbm, ⟨24, _⟩ => ⟨S64x192x192x24, .f32⟩
  | _, _ => ⟨S3x192x192x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S3x192x192x24_S1x3x192x192x24_1_2_3_4 : S3x192x192x24.BroadcastsInDim S1x3x192x192x24 (![1, 2, 3, 4] : Fin 4 → Fin S1x3x192x192x24.rank)
  bcast_S64x3_S64x3x1x1x1_0_1 : S64x3.BroadcastsInDim S64x3x1x1x1 (![0, 1] : Fin 2 → Fin S64x3x1x1x1.rank)
  bcast_S1x3x192x192x24_S64x3x192x192x24_0_1_2_3_4 : S1x3x192x192x24.BroadcastsInDim S64x3x192x192x24 (![0, 1, 2, 3, 4] : Fin 5 → Fin S64x3x192x192x24.rank)
  bcast_S64x3x1x1x1_S64x3x192x192x24_0_1_2_3_4 : S64x3x1x1x1.BroadcastsInDim S64x3x192x192x24 (![0, 1, 2, 3, 4] : Fin 5 → Fin S64x3x192x192x24.rank)
  bcast_S3_S1x3x1x1x1_1 : S3.BroadcastsInDim S1x3x1x1x1 (![1] : Fin 1 → Fin S1x3x1x1x1.rank)
  bcast_S1x3x1x1x1_S64x3x192x192x24_0_1_2_3_4 : S1x3x1x1x1.BroadcastsInDim S64x3x192x192x24 (![0, 1, 2, 3, 4] : Fin 5 → Fin S64x3x192x192x24.rank)
  reducesTo_S64x3x192x192x24_S64x192x192x24_d1 : S64x3x192x192x24.ReducesTo [1] S64x192x192x24
  h_S_ : 0 < S_.numel

variable [Facts₀]

class Facts : Prop extends Facts₀ where

variable [Facts]
-- ==== Proof.KernelBody.lean ====
/-
  What one run of the kernel body leaves in the output's staging buffer.

  The body loads row `n` of the centroid table (the grid coordinate picks the row), the weight row, and the three
  channel slabs [1, 192, 4608] of the embedding block; it stores ONE value through the whole output block. So the
  buffer ends holding that stored value: the body's arithmetic applied to the five loads.
-/
import proofs.«123314_j45689862094885_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem zero3 : (![0, 0, 0] : Fin 3 → Nat) = fun _ => 0 := funext fun a => by fin_cases a <;> rfl

/-- The output block after the body: the stored value, as a function of what the five loads read — row `n` of the
    centroids, the weights, and channel slabs 0, 1, 2 of the embedding. -/
theorem out_eq (c : Dev nD) (i : grid0.Coords) (a1 : Memref sig .tc .vmem S3x192x4608 .f32) (h1 : a1.IsWhole)
    (a2 : Memref sig .tc .vmem S64x3 .f32) (h2 : a2.IsWhole) (a3 : Memref sig .tc .vmem S1x3 .f32) (h3 : a3.IsWhole)
    (a4 : Memref sig .tc .vmem S1x192x4608 .f32) (h4 : a4.IsWhole)
    (x0 : Vec F S3x192x4608 .f32) (x1 : Vec F S64x3 .f32) (x2 : Vec F S1x3 .f32) :
    out0_A_3 c i a1 h1 a2 h2 a3 h3 a4 h4 x0 x1 x2
      = k0_pay1 (k0_pay2
          (View.ld x1 (Rect.unit (s := S64x3) (k0_off1 i) S1x3.size (k0_off1_inb i)))
          (View.ld x2 (Rect.unit (s := S1x3) ![0, 0] S1x3.size inb_S1x3_S1x3_0_0))
          (View.ld x0 (Rect.unit (s := S3x192x4608) ![0, 0, 0] S1x192x4608.size inb_S3x192x4608_S1x192x4608_0_0_0))
          (View.ld x0 (Rect.unit (s := S3x192x4608) ![1, 0, 0] S1x192x4608.size inb_S3x192x4608_S1x192x4608_1_0_0))
          (View.ld x0 (Rect.unit (s := S3x192x4608) ![2, 0, 0] S1x192x4608.size inb_S3x192x4608_S1x192x4608_2_0_0))) := by
  unfold out0_A_3
  rw [View.read_writes_eq_canon _ _ _ (cover0_A_3 c i a1 h1 a2 h2 a3 h3 a4 h4 x0 x1 x2)]
  unfold kernelRun0_A
  dsimp only
  sl_unfold_words
  rw [View.canon_unit_zero zero3]
  simp only [View.readAt_eq_ld, h1.read_unread, h2.read_unread, h3.read_unread]

end Cert.KernelIdeal.Body

end
-- ==== Proof.Spec.lean ====
/-
  The function both programs compute, over the extended reals.

  For an embedding `e` of shape [3, X, Y, Z], centroids `c` of shape [N, 3] and a per-channel weight `w` of shape [3],
  the value at (n, x, y, z) is

      exp ( 0 + Σ_{k < 3} (e[k, x, y, z] − c[n, k])² · w[k] ).

  The kernel adds the three channel terms one after the other onto a zero accumulator, `((0 + t₀) + t₁) + t₂`; the
  reference sums them along the channel axis from a zero initial value, `0 + (t₀ + t₁ + t₂)`. Addition on the extended
  reals is associative (also at the infinities), so the two groupings are the same number: no finiteness is needed.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- One channel's term of the exponent: the squared difference from the centroid's coordinate, times the weight. -/
def chanTerm (e c w : EReal) : EReal := (e - c) * (e - c) * w

/-- Three terms added in order onto `z` are `z` plus their sum: associativity of addition on the extended reals. -/
theorem chain_eq_sum (z : EReal) (f : Fin 3 → EReal) : z + f 0 + f 1 + f 2 = z + ∑ k : Fin 3, f k := by
  simp only [Fin.sum_univ_three, add_assoc]

/-- The exponent at (n, x, y, z): the zero word plus the sum over the three channels. -/
def dist (e : (⟨4, ![3, 192, 192, 24]⟩ : Shape).Idx → EReal) (c : (⟨2, ![64, 3]⟩ : Shape).Idx → EReal)
    (w : (⟨1, ![3]⟩ : Shape).Idx → EReal) (n : Fin 64) (x : Fin 192) (y : Fin 192) (z : Fin 24) : EReal :=
  Ideal.ofBits .f32 0x00000000#32 + ∑ k : Fin 3, chanTerm (e (ix4 k x y z)) (c (ix2 n k)) (w (ix1 k))

/-- The result array [64, 192, 192, 24]: the exponential of the exponent, index by index. -/
def prob (e : (⟨4, ![3, 192, 192, 24]⟩ : Shape).Idx → EReal) (c : (⟨2, ![64, 3]⟩ : Shape).Idx → EReal)
    (w : (⟨1, ![3]⟩ : Shape).Idx → EReal) : (⟨4, ![64, 192, 192, 24]⟩ : Shape).Idx → EReal :=
  fun j => Ideal.exp (dist e c w (j 0) (j 1) (j 2) (j 3))

end Cert.Spec

end
-- ==== Proof.KernelPayload.lean ====
/-
  The body's arithmetic read at one element, over the extended reals.

  With `cen` the loaded centroid row [1, 3], `wt` the loaded weight row [1, 3] and `s0`, `s1`, `s2` the three loaded
  channel slabs [1, 192, 4608], the stored block at (·, a, b) is
      exp (((0 + (s0[a,b] − cen[0])² · wt[0]) + (s1[a,b] − cen[1])² · wt[1]) + (s2[a,b] − cen[2])² · wt[2]).
  Every operation of the body is pointwise or a change of layout: the casts between [1, 192, 4608] and [192, 4608]
  and between [1, 3] and [3] keep the element, a slice of one entry followed by an extract reads that entry, and a
  broadcast of a scalar is that scalar everywhere.
-/
import proofs.«123314_j45689862094885_1_alg».proof.Proof.Gen.KernelIdeal.Skeleton
import proofs.«123314_j45689862094885_1_alg».proof.Proof.Spec
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Payload

open Cert.KernelIdeal Cert.KernelIdeal.Gen Cert.Spec

/-- Entry `k` of a [1, 3] row viewed as [3], sliced to one entry and extracted. -/
theorem entry (v : Vec Ideal S1x3 .f32) (o : Nat) (k : Fin 3) (hk : k.val = o) (hs : S3.Slices ![o] S1) :
    extractAt ![0] (extractStridedSlice S1 ![o] (shapeCast S3 v shapeCasts_S1x3_S3) hs) inpos_S1_p0 = v (ix2 0 k) := by
  subst hk
  unfold extractAt extractStridedSlice
  refine Eq.trans ?_ (shapeCast_1a_a_apply v shapeCasts_S1x3_S3 k)
  exact congrArg _ (funext fun a => Fin.ext (by match a with | ⟨0, _⟩ => show k.val + 0 = k.val; omega))

/-- The stored block at (u, a, b). -/
theorem pay_apply (cen wt : Vec Ideal S1x3 .f32) (s0 s1 s2 : Vec Ideal S1x192x4608 .f32)
    (u : Fin 1) (a : Fin 192) (b : Fin 4608) :
    k0_pay1 (k0_pay2 cen wt s0 s1 s2) (ix3 u a b)
      = Ideal.exp (Ideal.ofBits .f32 0x00000000#32
          + chanTerm (s0 (ix3 0 a b)) (cen (ix2 0 0)) (wt (ix2 0 0))
          + chanTerm (s1 (ix3 0 a b)) (cen (ix2 0 1)) (wt (ix2 0 1))
          + chanTerm (s2 (ix3 0 a b)) (cen (ix2 0 2)) (wt (ix2 0 2))) := by
  unfold k0_pay1 k0_pay2
  refine (shapeCast_ab_1ab_apply _ shapeCasts_S192x4608_S1x192x4608 u a b).trans ?_
  show Ideal.exp _ = _
  congr 1
  simp only [addf, mulf, subf, broadcast, Ideal.addf_def, Ideal.mulf_def, Ideal.subf_def, chanTerm]
  rw [shapeCast_1ab_ab_apply s0 shapeCasts_S1x192x4608_S192x4608 a b,
    shapeCast_1ab_ab_apply s1 shapeCasts_S1x192x4608_S192x4608 a b,
    shapeCast_1ab_ab_apply s2 shapeCasts_S1x192x4608_S192x4608 a b,
    entry cen 0 0 rfl slices_S3_o0_S1, entry cen 1 1 rfl slices_S3_o1_S1, entry cen 2 2 rfl slices_S3_o2_S1,
    entry wt 0 0 rfl slices_S3_o0_S1, entry wt 1 1 rfl slices_S3_o1_S1, entry wt 2 2 rfl slices_S3_o2_S1]
  rfl

end Cert.KernelIdeal.Payload

end
-- ==== Proof.KernelBlocks.lean ====
/-
  From one grid point's block to the whole array the region fills.

  Grid point `t` (one of 64) sees the whole embedding [3, 192, 4608], the whole centroid table [64, 3] and the whole
  weight row [1, 3] (their block indices never move), loads centroid row `t`, and writes block `t` of the result
  [64, 192, 4608]. So the array ends holding, at (n, x, p), the body's value computed from centroid row `n`; the 64
  blocks tile the array, point `n` covering row `n`.
-/
import proofs.«123314_j45689862094885_1_alg».proof.Proof.Gen.KernelIdeal.Frame
import proofs.«123314_j45689862094885_1_alg».proof.Proof.KernelBody
import proofs.«123314_j45689862094885_1_alg».proof.Proof.KernelPayload
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Spec

variable (m : (ℓ : Loc nD τ sig) → Buf (Elt Ideal) ℓ) (ρ : Dev nD → PrngReg)

/-- The array [64, 192, 4608] the region fills, from the embedding viewed [3, 192, 4608], the centroids and the weight
    row [1, 3]: at (n, x, p) the exponential of the three channel terms added in order onto zero. -/
def filled (e : S3x192x4608.Idx → EReal) (cn : S64x3.Idx → EReal) (w : S1x3.Idx → EReal) : S64x192x4608.Idx → EReal :=
  fun i => Ideal.exp (Ideal.ofBits .f32 0x00000000#32
    + chanTerm (e (ix3 0 (i 1) (i 2))) (cn (ix2 (i 0) 0)) (w (ix2 0 0))
    + chanTerm (e (ix3 1 (i 1) (i 2))) (cn (ix2 (i 0) 1)) (w (ix2 0 1))
    + chanTerm (e (ix3 2 (i 1) (i 2))) (cn (ix2 (i 0) 2)) (w (ix2 0 2)))

/-- The printed index maps over the grid: the three inputs' block indices are zero, the output's is the point, and
    the centroid row the body loads is the point's. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ k0_off1 (grid0.coords t) (0 : Fin 2) = t.val ∧ k0_off1 (grid0.coords t) (1 : Fin 2) = 0 :=
  (by decide +kernel : ∀ t : Fin grid0.N, _)

/-- Channel slab `k` of the embedding block at any point, read at (·, a, b), is the embedding array at (k, a, b). -/
theorem slab_read (c : Dev nD) (t : Fin cfg0.N) (o : Nat) (k : Fin 3) (hk : k.val = o)
    (inb : ∀ d, (![o, 0, 0] : Fin 3 → Nat) d + S1x192x4608.size d ≤ S3x192x4608.size d) (a : Fin 192) (b : Fin 4608) :
    View.ld (iblk m c 0 t) (Rect.unit (s := S3x192x4608) ![o, 0, 0] S1x192x4608.size inb) (ix3 0 a b)
      = V m c main_v0 (ix3 k a b) := by
  subst hk
  obtain ⟨e0, e1, e2, -⟩ := idx_facts t
  show V m c main_v0 _ = V m c main_v0 _
  refine congrArg _ (funext fun d => Fin.ext ?_)
  match d with
  | ⟨0, _⟩ => show win0_0.index t (0 : Fin 3) * 3 + 1 * (k.val + 1 * ((0 : Fin 1) : Nat)) = k.val; rw [e0]; simp
  | ⟨1, _⟩ => show win0_0.index t (1 : Fin 3) * 192 + 1 * (0 + 1 * a.val) = a.val; rw [e1]; omega
  | ⟨2, _⟩ => show win0_0.index t (2 : Fin 3) * 4608 + 1 * (0 + 1 * b.val) = b.val; rw [e2]; omega

/-- A grid point as a row number of the result and of the centroid table. -/
def rowOf (t : Fin cfg0.N) : Fin 64 := ⟨t.val, Nat.lt_of_lt_of_eq t.isLt N_0⟩

/-- The centroid row the body loads at point `t`, read at (·, k), is the centroid table at (t, k). -/
theorem cen_read (c : Dev nD) (t : Fin cfg0.N) (k : Fin 3) :
    View.ld (iblk m c 1 t) (Rect.unit (s := S64x3) (k0_off1 (grid0.coords t)) S1x3.size (k0_off1_inb (grid0.coords t))) (ix2 0 k)
      = V m c main_arg1 (ix2 (rowOf t) k) := by
  obtain ⟨-, -, -, e0, e1, -, -, -, -, -, o0, o1⟩ := idx_facts t
  show V m c main_arg1 _ = V m c main_arg1 _
  refine congrArg _ (funext fun d => Fin.ext ?_)
  match d with
  | ⟨0, _⟩ => show win0_1.index t (0 : Fin 2) * 64 + 1 * (k0_off1 (grid0.coords t) (0 : Fin 2) + 1 * ((0 : Fin 1) : Nat)) = t.val; rw [e0, o0]; simp
  | ⟨1, _⟩ => show win0_1.index t (1 : Fin 2) * 3 + 1 * (k0_off1 (grid0.coords t) (1 : Fin 2) + 1 * k.val) = k.val; rw [e1, o1]; omega

/-- The weight row at any point, read at (·, k), is the weight array [1, 3] at (0, k). -/
theorem wt_read (c : Dev nD) (t : Fin cfg0.N) (k : Fin 3) :
    View.ld (iblk m c 2 t) (Rect.unit (s := S1x3) ![0, 0] S1x3.size inb_S1x3_S1x3_0_0) (ix2 0 k)
      = V m c main_v8 (ix2 0 k) := by
  obtain ⟨-, -, -, -, -, e0, e1, -⟩ := idx_facts t
  show V m c main_v8 _ = V m c main_v8 _
  refine congrArg _ (funext fun d => Fin.ext ?_)
  match d with
  | ⟨0, _⟩ => show win0_2.index t (0 : Fin 2) * 1 + 1 * (0 + 1 * ((0 : Fin 1) : Nat)) = ((0 : Fin 1) : Nat); rw [e0]; simp
  | ⟨1, _⟩ => show win0_2.index t (1 : Fin 2) * 3 + 1 * (0 + 1 * k.val) = k.val; rw [e1]; omega

/-- What point `t` writes back is block `t` of `filled` of the arrays as the region finds them. -/
theorem flushed_eq (c : Dev nD) (t : Fin cfg0.N) :
    (dats m 0 c).flushed 3 t
      = ((cfg0.win 3).blk t).view.read (Elt Ideal) (filled (V m c main_v0) (V m c main_arg1) (V m c main_v8)) := by
  show (cfg0.win 3).cut (grid0.coords t) ((dats m 0 c).after 3 t) = _
  rw [after0_3]
  unfold outsAt0
  rw [Body.out_eq]
  obtain ⟨-, -, -, -, -, -, -, q0, q1, q2, -⟩ := idx_facts t
  funext (y : S1x192x4608.Idx)
  obtain ⟨u, a, b, rfl⟩ : ∃ (u : Fin 1) (a : Fin 192) (b : Fin 4608), y = ix3 u a b := ⟨y 0, y 1, y 2, eq_ix3 y⟩
  refine (Payload.pay_apply _ _ _ _ _ u a b).trans ?_
  rw [slab_read m c t 0 0 rfl, slab_read m c t 1 1 rfl, slab_read m c t 2 2 rfl, cen_read m c t 0, cen_read m c t 1,
    cen_read m c t 2, wt_read m c t 0, wt_read m c t 1, wt_read m c t 2]
  show _ = filled _ _ _ (((cfg0.win 3).blk t).view.emb (ix3 u a b))
  have hemb : ((cfg0.win 3).blk t).view.emb (ix3 u a b) = ix3 (rowOf t) a b := by
    funext d; apply Fin.ext
    match d with
    | ⟨0, _⟩ => show win0_3.index t (0 : Fin 3) * 1 + 1 * u.val = t.val; rw [q0]; omega
    | ⟨1, _⟩ => show win0_3.index t (1 : Fin 3) * 192 + 1 * a.val = a.val; rw [q1]; omega
    | ⟨2, _⟩ => show win0_3.index t (2 : Fin 3) * 4608 + 1 * b.val = b.val; rw [q2]; omega
  rw [hemb]
  rfl

/-- An index of the result array is in point `t`'s block iff each coordinate is in the block's range. -/
theorem mem_blk (t : Fin cfg0.N) (i : S64x192x4608.Idx) :
    i ∈ ((cfg0.win 3).blk t).view.set ↔ ∀ d : Fin 3, win0_3.index t d * S1x192x4608.size d ≤ (i d).val
      ∧ (i d).val < win0_3.index t d * S1x192x4608.size d + S1x192x4608.size d := by
  show i ∈ ((View.whole main_v9).slice (win0_3.rect t)).set ↔ _
  rw [View.set_slice_whole, Rect.mem_set_unit]
  exact Iff.rfl

/-- Row `n` of the result array is written back by point `n`: the 64 blocks tile the array. -/
theorem cover (i : S64x192x4608.Idx) :
    ∃ t : Fin cfg0.N, (cfg0.win 3).flush t = true ∧ i ∈ ((cfg0.win 3).blk t).view.set := by
  have h0 : (i 0).val < 64 := (i 0).isLt
  have h1 : (i 1).val < 192 := (i 1).isLt
  have h2 : (i 2).val < 4608 := (i 2).isLt
  refine ⟨⟨(i 0).val, Nat.lt_of_lt_of_eq h0 N_0.symm⟩, flush0_3 _, ?_⟩
  rw [mem_blk]
  obtain ⟨-, -, -, -, -, -, -, q0, q1, q2, -⟩ := idx_facts ⟨(i 0).val, Nat.lt_of_lt_of_eq h0 N_0.symm⟩
  replace q0 : win0_3.index ⟨(i 0).val, Nat.lt_of_lt_of_eq h0 N_0.symm⟩ (0 : Fin 3) = (i 0).val := q0
  intro d
  match d with
  | ⟨0, _⟩ =>
    show win0_3.index ⟨(i 0).val, _⟩ (0 : Fin 3) * 1 ≤ (i 0).val ∧ (i 0).val < win0_3.index ⟨(i 0).val, _⟩ (0 : Fin 3) * 1 + 1
    rw [q0]; omega
  | ⟨1, _⟩ =>
    show win0_3.index ⟨(i 0).val, _⟩ (1 : Fin 3) * 192 ≤ (i 1).val ∧ (i 1).val < win0_3.index ⟨(i 0).val, _⟩ (1 : Fin 3) * 192 + 192
    rw [q1]; omega
  | ⟨2, _⟩ =>
    show win0_3.index ⟨(i 0).val, _⟩ (2 : Fin 3) * 4608 ≤ (i 2).val ∧ (i 2).val < win0_3.index ⟨(i 0).val, _⟩ (2 : Fin 3) * 4608 + 4608
    rw [q2]; omega

/-- The result array after the region: `filled` of the arrays as the region finds them. -/
theorem final (c : Dev nD) :
    (dats m 0 c).arrAt 3 cfg0.N = filled (V m c main_v0) (V m c main_arg1) (V m c main_v8) :=
  (dats m 0 c).arrAt_eq_of_cover 3 _ (fun t _ => flushed_eq m c t) cover

end Cert.KernelIdeal.Blocks

end
-- ==== Proof.KernelRun.lean ====
/-
  The kernel program's run, read as a value.

  Before the region the host views the embedding [3, 192, 192, 24] as [3, 192, 4608] (merging the last two axes) and
  computes the weight row 1 / (σ·σ·(−2) + 10⁻¹⁶), viewed [1, 3]; after the region it views the filled array
  [64, 192, 4608] as [64, 192, 192, 24]. A view keeps each element at its row-major position, so position
  (n, x, 24·y + z) of the filled array is position (n, x, y, z) of the result, and likewise for the embedding.
  With the three channel terms regrouped, the result is the specification's `prob`.
-/
import proofs.«123314_j45689862094885_1_alg».proof.Proof.Gen.KernelIdeal.Frame
import proofs.«123314_j45689862094885_1_alg».proof.Proof.KernelBlocks
import proofs.«123314_j45689862094885_1_alg».proof.Proof.Spec
import Idealize.ShloMosaic.Lib.Pipeline.Value
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.Spec Cert.KernelIdeal.Blocks

variable (m : (ℓ : Loc nD τ sig) → Buf (Elt Ideal) ℓ) (ρ : Dev nD → PrngReg)

/-- The weight vector the host computes from σ: one over σ·σ·(−2) + 10⁻¹⁶, entry by entry. -/
abbrev invScale (s : S3.Idx → EReal) : S3.Idx → EReal :=
  Host.divf (F := Ideal) (broadcastInDim S3 ![] bcast_S_S3 (constant (F := Ideal) S_ .f32 0x3F800000#32))
    (addf (mulf (mulf s s) (broadcastInDim S3 ![] bcast_S_S3 (constant (F := Ideal) S_ .f32 0xC0000000#32)))
      (broadcastInDim S3 ![] bcast_S_S3 (constant (F := Ideal) S_ .f32 0x24E69595#32)))

/-- The region finds the embedding viewed [3, 192, 4608]. -/
theorem V_v0 (c : Dev nD) : (V m c main_v0 : S3x192x4608.Idx → EReal)
    = shapeCast S3x192x4608 (m ((c : Thread nD τ).loc main_arg0)) shapeCasts_S3x192x192x24_S3x192x4608 := by
  show StableHlo.after hostOps0 (fun b => m (c, b)) (Proc.devRef .tc main_v0) = _
  after_results
  rfl

/-- The region finds the weight row: the host's weight vector viewed [1, 3]. -/
theorem V_v8 (c : Dev nD) : (V m c main_v8 : S1x3.Idx → EReal)
    = shapeCast S1x3 (invScale (m ((c : Thread nD τ).loc main_arg2))) shapeCasts_S3_S1x3 := by
  show StableHlo.after hostOps0 (fun b => m (c, b)) (Proc.devRef .tc main_v8) = _
  after_results
  rfl

/-- After the region the host views the filled array as [64, 192, 192, 24]. -/
theorem tail_v10 (c : Dev nD) :
    Pipeline.afterTail₀ cfgs (dats m) 0 (V0 m) [hostOps1] c main_v10
      = shapeCast S64x192x192x24 ((dats m 0 c).arrAt 3 cfg0.N) shapeCasts_S64x192x4608_S64x192x192x24 := by
  unfold Pipeline.afterTail₀
  show StableHlo.after hostOps1 _ (Proc.devRef .tc main_v10) = _
  after_results
  exact congrArg (fun A : S64x192x4608.Idx → EReal => shapeCast S64x192x192x24 A shapeCasts_S64x192x4608_S64x192x192x24)
    (Pipeline.withArrays_arr spec0 launch0.win.arr_inj c _ _ 3)

/-- The result array [64, 192, 192, 24] the kernel program ends with, from the launch contents of its arguments. -/
def result (c : Dev nD) : S64x192x192x24.Idx → EReal :=
  shapeCast S64x192x192x24
    (filled (shapeCast S3x192x4608 (m ((c : Thread nD τ).loc main_arg0)) shapeCasts_S3x192x192x24_S3x192x4608)
      (m ((c : Thread nD τ).loc main_arg1))
      (shapeCast S1x3 (invScale (m ((c : Thread nD τ).loc main_arg2))) shapeCasts_S3_S1x3))
    shapeCasts_S64x192x4608_S64x192x192x24

/-- Every weakly fair execution of the kernel program terminates with the result buffer at `result` and the arguments
    unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v10 (Pipeline.mem_restRefs_of main_v10 (by decide) (by decide))).trans
        ((tail_v10 m c).trans (by rw [final m c, V_v0 m c, V_v8 m c, V_main_arg1 m c]; rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

/-- The result at (n, x, y, z) is the specification's value there: the views keep row-major positions, and the three
    channel terms added in order are their sum. -/
theorem result_eq (c : Dev nD) :
    result m c = prob (m ((c : Thread nD τ).loc main_arg0)) (m ((c : Thread nD τ).loc main_arg1))
      (invScale (m ((c : Thread nD τ).loc main_arg2))) := by
  funext j
  obtain ⟨n, x, y, z, rfl⟩ : ∃ (n : Fin 64) (x : Fin 192) (y : Fin 192) (z : Fin 24), j = ix4 n x y z :=
    ⟨j 0, j 1, j 2, j 3, eq_ix4 j⟩
  have hp : y.val * 24 + z.val < 4608 := by have := y.isLt; have := z.isLt; omega
  unfold result
  refine (shapeCast_apply _ shapeCasts_S64x192x4608_S64x192x192x24 (ix4 n x y z) (ix3 n x ⟨y.val * 24 + z.val, hp⟩) (by
    rw [Shape.rowMajor_val_three, Shape.rowMajor_val_four]
    show (n.val * 192 + x.val) * 4608 + (y.val * 24 + z.val) = ((n.val * 192 + x.val) * 192 + y.val) * 24 + z.val
    omega)).trans ?_
  have he : ∀ k : Fin 3, shapeCast S3x192x4608 (m ((c : Thread nD τ).loc main_arg0)) shapeCasts_S3x192x192x24_S3x192x4608
      (ix3 k x ⟨y.val * 24 + z.val, hp⟩) = m ((c : Thread nD τ).loc main_arg0) (ix4 k x y z) := fun k =>
    shapeCast_apply _ shapeCasts_S3x192x192x24_S3x192x4608 _ _ (by
      rw [Shape.rowMajor_val_three, Shape.rowMajor_val_four]
      show ((k.val * 192 + x.val) * 192 + y.val) * 24 + z.val = (k.val * 192 + x.val) * 4608 + (y.val * 24 + z.val)
      omega)
  have hw : ∀ k : Fin 3, shapeCast S1x3 (invScale (m ((c : Thread nD τ).loc main_arg2))) shapeCasts_S3_S1x3 (ix2 0 k)
      = invScale (m ((c : Thread nD τ).loc main_arg2)) (ix1 k) := fun k => shapeCast_a_1a_apply _ shapeCasts_S3_S1x3 0 k
  show Ideal.exp _ = Ideal.exp _
  congr 1
  show _ + chanTerm _ _ _ + chanTerm _ _ _ + chanTerm _ _ _ = _
  rw [he 0, he 1, he 2, hw 0, hw 1, hw 2]
  exact chain_eq_sum _ (fun k => chanTerm (m ((c : Thread nD τ).loc main_arg0) (ix4 k x y z))
    (m ((c : Thread nD τ).loc main_arg1) (ix2 n k)) (invScale (m ((c : Thread nD τ).loc main_arg2)) (ix1 k)))

end Cert.KernelIdeal.Run

end
-- ==== Proof.RefValue.lean ====
/-
  The reference program's result is the specification's `prob`.

  The reference broadcasts the embedding to [64, 3, 192, 192, 24] along a new leading axis and the centroids along
  three new trailing axes, subtracts, squares, multiplies by the weight vector broadcast along the channel axis, sums
  the channel axis from zero and exponentiates. At (n, x, y, z) the channel-`k` summand therefore reads the embedding
  at (k, x, y, z), the centroids at (n, k) and the weights at k.
-/
import proofs.«123314_j45689862094885_1_alg».proof.Proof.Gen.ReferenceIdeal.Read
import proofs.«123314_j45689862094885_1_alg».proof.Proof.Spec
import Idealize.ShloMosaic.Lib.ValueIdx

noncomputable section

open Idealize.ShloMosaic Idealize.ShloMosaic.ValueIdx

namespace Cert.ReferenceIdeal.RefValue

open Cert.ReferenceIdeal Cert.ReferenceIdeal.Read Cert.Spec

/-- The reference's result, index by index, with the weight vector the reference computes from σ. -/
theorem ref_eq (x0 : S3x192x192x24.Idx → EReal) (x1 : S64x3.Idx → EReal) (x2 : S3.Idx → EReal) :
    val_main_v17 (F := Ideal) x0 x1 x2 = prob x0 x1 (val_main_v6 (F := Ideal) x2) := by
  funext j
  obtain ⟨n, x, y, z, rfl⟩ : ∃ (n : Fin 64) (x : Fin 192) (y : Fin 192) (z : Fin 24), j = ix4 n x y z :=
    ⟨j 0, j 1, j 2, j 3, eq_ix4 j⟩
  have e0 : ∀ k : Fin 3, idx_main_v7 (idx_main_v9 (idx_main_v16 (ix4 n x y z) k)) = ix4 k x y z := fun k =>
    funext fun a => Fin.ext (by match a with | ⟨0, _⟩ => rfl | ⟨1, _⟩ => rfl | ⟨2, _⟩ => rfl | ⟨3, _⟩ => rfl)
  have e1 : ∀ k : Fin 3, idx_main_v8 (idx_main_v10 (idx_main_v16 (ix4 n x y z) k)) = ix2 n k := fun k =>
    funext fun a => Fin.ext (by match a with | ⟨0, _⟩ => rfl | ⟨1, _⟩ => rfl)
  have e2 : ∀ k : Fin 3, idx_main_v13 (idx_main_v14 (idx_main_v16 (ix4 n x y z) k)) = ix1 k := fun k =>
    funext fun a => Fin.ext (by match a with | ⟨0, _⟩ => rfl)
  rw [val_main_v17_apply, val_main_v16_apply]
  simp only [val_main_v15_apply, val_main_v12_apply, val_main_v11_apply, val_main_v9_apply, val_main_v7_apply,
    val_main_v10_apply, val_main_v8_apply, val_main_v14_apply, val_main_v13_apply, e0, e1, e2, val_main_cst_2_apply,
    Ideal.hostUnary_exp_def, Ideal.mulf_def, Ideal.subf_def, Ideal.ofBits_def]
  rfl

end Cert.ReferenceIdeal.RefValue

end
-- ==== Proof.lean ====
/-
  The five claims about the centroid-probability kernel and its reference.

  Both programs compute, at (n, x, y, z) of a [64, 192, 192, 24] result,
      exp ( 0 + Σ_{k < 3} (e[k, x, y, z] − c[n, k])² · w[k] ),    w = 1 / (σ·σ·(−2) + 10⁻¹⁶),
  from the embedding `e`, the centroids `c` and `σ` (Proof/Spec.lean). The kernel does it one centroid per grid point over
  the embedding viewed [3, 192, 4608], adding the three channel terms in order onto zero (Proof/KernelBody.lean,
  KernelPayload.lean, KernelBlocks.lean, KernelRun.lean); the reference broadcasts, multiplies and sums the channel axis
  (Proof/RefValue.lean). Over the extended reals the two are equal because addition is associative; the precondition
  (finite inputs) is not needed for the value. The ideal pass rewrote nothing, so `preserves` is trivial. The three
  frames are the programs' runs with the result dropped.
-/
import proofs.«123314_j45689862094885_1_alg».proof.Defs
import proofs.«123314_j45689862094885_1_alg».proof.Proof.Gen.Kernel
import proofs.«123314_j45689862094885_1_alg».proof.Proof.Gen.Kernel.Skeleton
import proofs.«123314_j45689862094885_1_alg».proof.Proof.Gen.Kernel.Launch
import proofs.«123314_j45689862094885_1_alg».proof.Proof.Gen.Kernel.Points
import proofs.«123314_j45689862094885_1_alg».proof.Proof.Gen.Kernel.Frame
import proofs.«123314_j45689862094885_1_alg».proof.Proof.Gen.KernelIdeal
import proofs.«123314_j45689862094885_1_alg».proof.Proof.Gen.KernelIdeal.Skeleton
import proofs.«123314_j45689862094885_1_alg».proof.Proof.Gen.KernelIdeal.Launch
import proofs.«123314_j45689862094885_1_alg».proof.Proof.Gen.KernelIdeal.Points
import proofs.«123314_j45689862094885_1_alg».proof.Proof.Gen.KernelIdeal.Frame
import proofs.«123314_j45689862094885_1_alg».proof.Proof.Gen.ReferenceIdeal
import proofs.«123314_j45689862094885_1_alg».proof.Proof.Gen.Pre_finite_inputs
import proofs.«123314_j45689862094885_1_alg».proof.Proof.Gen.ReferenceIdeal.Run
import proofs.«123314_j45689862094885_1_alg».proof.Proof.Gen.ReferenceIdeal.Read
import proofs.«123314_j45689862094885_1_alg».proof.Proof.KernelRun
import proofs.«123314_j45689862094885_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, the kernel program ends with its result at `prob` of the arguments and the
    weight vector, and the reference with its result at the same `prob`: the weight vectors are one term. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_eq, (hagree c).1, (hagree c).2.1,
    (hagree c).2.2]
  show _ = Cert.KernelIdeal.Run.result m c
  rw [Cert.KernelIdeal.Run.result_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
